-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x2816x2048 : Shape := ⟨3, ![8, 2816, 2048]⟩
abbrev S8x2048x1408 : Shape := ⟨3, ![8, 2048, 1408]⟩
abbrev S8 : Shape := ⟨1, ![8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2816x2048 : S_.BroadcastsInDim S8x2816x2048 (![] : Fin 0 → Fin S8x2816x2048.rank)
  reducesTo_S8x2816x2048_S_d0_1_2 : S8x2816x2048.ReducesTo [0, 1, 2] S_
  bcast_S_S8x2048x1408 : S_.BroadcastsInDim S8x2048x1408 (![] : Fin 0 → Fin S8x2048x1408.rank)
  reducesTo_S8x2048x1408_S_d0_1_2 : S8x2048x1408.ReducesTo [0, 1, 2] S_

variable [Facts]

def fn {F : FTy → Type} [FloatOps F] (main_arg0 : FVec F S16384x2048 .f32) (main_arg1 : FVec F S8x2816x2048 .f32) (main_arg2 : FVec F S8x2048x1408 .f32) (main_arg3 : IVec S8 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2816x2048 .f32 := Host.absf main_arg1
  let main_cst_0 : FVec F S_ .f32 := constant S_ .f32 0x7F800000#32
  let main_v5 : FVec F S8x2816x2048 .f32 := broadcastInDim S8x2816x2048 ![] bcast_S_S8x2816x2048 main_cst_0
  let main_v6 : IVec S8x2816x2048 1 := cmpf .olt main_v4 main_v5
  let main_c_1 : IVec S_ 1 := constantI S_ 1 1#1
  let main_v7 : IVec S_ 1 := (fun x v => Host.reduce IntOp.andi x v reducesTo_S8x2816x2048_S_d0_1_2 h_S_) main_v6 main_c_1
  let main_v8 : IVec S_ 1 := andi main_v3 main_v7
  let main_v9 : FVec F S8x2048x1408 .f32 := Host.absf main_arg2
  let main_cst_2 : FVec F S_ .f32 := constant S_ .f32 0x7F800000#32
  let main_v10 : FVec F S8x2048x1408 .f32 := broadcastInDim S8x2048x1408 ![] bcast_S_S8x2048x1408 main_cst_2
  let main_v11 : IVec S8x2048x1408 1 := cmpf .olt main_v9 main_v10
  let main_c_3 : IVec S_ 1 := constantI S_ 1 1#1
  let main_v12 : IVec S_ 1 := (fun x v => Host.reduce IntOp.andi x v reducesTo_S8x2048x1408_S_d0_1_2 h_S_) main_v11 main_c_3
  let main_v13 : IVec S_ 1 := andi main_v8 main_v12
  main_v13
-- ==== Kernel.lean ====
abbrev S16384x2048 : Shape := ⟨2, ![16384, 2048]⟩
abbrev S8x2816x2048 : Shape := ⟨3, ![8, 2816, 2048]⟩
abbrev S8x2048x1408 : Shape := ⟨3, ![8, 2048, 1408]⟩
abbrev S8 : Shape := ⟨1, ![8]⟩
abbrev S8x2048x2048 : Shape := ⟨3, ![8, 2048, 2048]⟩
abbrev S1x256x2048 : Shape := ⟨3, ![1, 256, 2048]⟩
abbrev S1x2816x2048 : Shape := ⟨3, ![1, 2816, 2048]⟩
abbrev S1x2048x1408 : Shape := ⟨3, ![1, 2048, 1408]⟩
abbrev S256x2048 : Shape := ⟨2, ![256, 2048]⟩
abbrev S2816x2048 : Shape := ⟨2, ![2816, 2048]⟩
abbrev S256x2816 : Shape := ⟨2, ![256, 2816]⟩
abbrev S256x1408 : Shape := ⟨2, ![256, 1408]⟩
abbrev S2048x1408 : Shape := ⟨2, ![2048, 1408]⟩

abbrev nBuf : Space → Nat
  | .hbm => 9
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S8x2816x2048, .f32⟩
  | .hbm, ⟨2, _⟩ => ⟨S8x2048x1408, .f32⟩
  | .hbm, ⟨3, _⟩ => ⟨S8, .i32⟩
  | .hbm, ⟨4, _⟩ => ⟨S8x2048x2048, .f32⟩
  | .hbm, ⟨5, _⟩ => ⟨S8x2816x2048, .bf16⟩
  | .hbm, ⟨6, _⟩ => ⟨S8x2048x1408, .bf16⟩
  | .hbm, ⟨7, _⟩ => ⟨S8x2048x2048, .f32⟩
  | .hbm, ⟨8, _⟩ => ⟨S16384x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2816x2048, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x256x2048, .f32⟩
  | .local _ .vmem, ⟨6, _⟩ => ⟨S1x256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2816x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16384x2048_S8x2048x2048 : S16384x2048.ShapeCasts S8x2048x2048
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2816x2048_S1x2816x2048_0_0_0 : ∀ a, (![0, 0, 0] : Fin 3 → Nat) a + S1x2816x2048.size a ≤ S1x2816x2048.size a
  h_S1x2816x2048 : 0 < S1x2816x2048.numel
  shapeCasts_S1x2816x2048_S2816x2048 : S1x2816x2048.ShapeCasts S2816x2048
  slices_S256x2816_o0_0_S256x1408 : S256x2816.Slices ![0, 0] S256x1408
  slices_S256x2816_o0_1408_S256x1408 : S256x2816.Slices ![0, 1408] S256x1408
  inb_S1x2048x1408_S1x2048x1408_0_0_0 : ∀ a, (![0, 0, 0] : Fin 3 → Nat) a + S1x2048x1408.size a ≤ S1x2048x1408.size a
  h_S1x2048x1408 : 0 < S1x2048x1408.numel
  shapeCasts_S1x2048x1408_S2048x1408 : S1x2048x1408.ShapeCasts S2048x1408
  shapeCasts_S256x2048_S1x256x2048 : S256x2048.ShapeCasts S1x256x2048
  shapeCasts_S8x2048x2048_S16384x2048 : S8x2048x2048.ShapeCasts S16384x2048
  dot_S256x2048_S2816x2048_S256x2816_1_1_0_0_n_n_wf : DotDims.WF S256x2048 S2816x2048 S256x2816 [1] [1] [0] [0] [] []
  dot_S256x1408_S2048x1408_S256x2048_1_1_0_0_n_n_wf : DotDims.WF S256x1408 S2048x1408 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x2048x2048.size a
  hwx0_0 : ∀ i : grid0.Coords, EltTy.bits .f32 = 32 ∨ (Rect.block (s := S8x2048x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2816x2048.size a ≤ S8x2816x2048.size a
  hwx0_1 : ∀ i : grid0.Coords, EltTy.bits .bf16 = 32 ∨ (Rect.block (s := S8x2816x2048) S1x2816x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1408.size a ≤ S8x2048x1408.size a
  hwx0_2 : ∀ i : grid0.Coords, EltTy.bits .bf16 = 32 ∨ (Rect.block (s := S8x2048x1408) S1x2048x1408.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x2048x2048.size a
  hwx0_3 : ∀ i : grid0.Coords, EltTy.bits .f32 = 32 ∨ (Rect.block (s := S8x2048x2048) S1x256x2048.size (cc0_transform_3 i) (hinb0_3 i)).WholeWords (EltTy.packing .f32)

variable [Facts₀]

def dot_S256x2048_S2816x2048_S256x2816_1_1_0_0_n_n : DotDims S256x2048 S2816x2048 S256x2816 where
  lhsContracting := [1]
  rhsContracting := [1]
  lhsNonContracting := [0]
  rhsNonContracting := [0]
  lhsBatch := []
  rhsBatch := []
  wf := dot_S256x2048_S2816x2048_S256x2816_1_1_0_0_n_n_wf
def dot_S256x1408_S2048x1408_S256x2048_1_1_0_0_n_n : DotDims S256x1408 S2048x1408 S256x2048 where
  lhsContracting := [1]
  rhsContracting := [1]
  lhsNonContracting := [0]
  rhsNonContracting := [0]
  lhsBatch := []
  rhsBatch := []
  wf := dot_S256x1408_S2048x1408_S256x2048_1_1_0_0_n_n_wf

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2816x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x1408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S8x2816x2048 : Shape := ⟨3, ![8, 2816, 2048]⟩
abbrev S8x2048x1408 : Shape := ⟨3, ![8, 2048, 1408]⟩
abbrev S8 : Shape := ⟨1, ![8]⟩
abbrev S8x2048x2048 : Shape := ⟨3, ![8, 2048, 2048]⟩
abbrev S8x2048x2816 : Shape := ⟨3, ![8, 2048, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x2816x2048, .f32⟩
  | .hbm, ⟨2, _⟩ => ⟨S8x2048x1408, .f32⟩
  | .hbm, ⟨3, _⟩ => ⟨S8, .i32⟩
  | .hbm, ⟨4, _⟩ => ⟨S8x2048x2048, .f32⟩
  | .hbm, ⟨5, _⟩ => ⟨S8x2048x2816, .f32⟩
  | .hbm, ⟨6, _⟩ => ⟨S8x2048x1408, .f32⟩
  | .hbm, ⟨7, _⟩ => ⟨S8x2048x1408, .f32⟩
  | .hbm, ⟨8, _⟩ => ⟨S8x2048x1408, .f32⟩
  | .hbm, ⟨9, _⟩ => ⟨S8x2048x1408, .f32⟩
  | .hbm, ⟨10, _⟩ => ⟨S_, .f32⟩
  | .hbm, ⟨11, _⟩ => ⟨S8x2048x1408, .f32⟩
  | .hbm, ⟨12, _⟩ => ⟨S8x2048x1408, .f32⟩
  | .hbm, ⟨13, _⟩ => ⟨S_, .f32⟩
  | .hbm, ⟨14, _⟩ => ⟨S8x2048x1408, .f32⟩
  | .hbm, ⟨15, _⟩ => ⟨S8x2048x1408, .f32⟩
  | .hbm, ⟨16, _⟩ => ⟨S8x2048x1408, .f32⟩
  | .hbm, ⟨17, _⟩ => ⟨S8x2048x1408, .f32⟩
  | .hbm, ⟨18, _⟩ => ⟨S8x2048x2048, .f32⟩
  | .hbm, ⟨19, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  shapeCasts_S16384x2048_S8x2048x2048 : S16384x2048.ShapeCasts S8x2048x2048
  slices_S8x2048x2816_S8x2048x1408_0_0_0 : S8x2048x2816.Slices ![0, 0, 0] S8x2048x1408
  slices_S8x2048x2816_S8x2048x1408_0_0_1408 : S8x2048x2816.Slices ![0, 0, 1408] S8x2048x1408
  bcast_S_S8x2048x1408 : S_.BroadcastsInDim S8x2048x1408 (![] : Fin 0 → Fin S8x2048x1408.rank)
  shapeCasts_S8x2048x2048_S16384x2048 : S8x2048x2048.ShapeCasts S16384x2048
  dot_S8x2048x2048_S8x2816x2048_S8x2048x2816_2_2_1_1_0_0_wf : DotDims.WF S8x2048x2048 S8x2816x2048 S8x2048x2816 [2] [2] [1] [1] [0] [0]
  dot_S8x2048x1408_S8x2048x1408_S8x2048x2048_2_2_1_1_0_0_wf : DotDims.WF S8x2048x1408 S8x2048x1408 S8x2048x2048 [2] [2] [1] [1] [0] [0]

variable [Facts₀]

def dot_S8x2048x2048_S8x2816x2048_S8x2048x2816_2_2_1_1_0_0 : DotDims S8x2048x2048 S8x2816x2048 S8x2048x2816 where
  lhsContracting := [2]
  rhsContracting := [2]
  lhsNonContracting := [1]
  rhsNonContracting := [1]
  lhsBatch := [0]
  rhsBatch := [0]
  wf := dot_S8x2048x2048_S8x2816x2048_S8x2048x2816_2_2_1_1_0_0_wf
def dot_S8x2048x1408_S8x2048x1408_S8x2048x2048_2_2_1_1_0_0 : DotDims S8x2048x1408 S8x2048x1408 S8x2048x2048 where
  lhsContracting := [2]
  rhsContracting := [2]
  lhsNonContracting := [1]
  rhsNonContracting := [1]
  lhsBatch := [0]
  rhsBatch := [0]
  wf := dot_S8x2048x1408_S8x2048x1408_S8x2048x2048_2_2_1_1_0_0_wf

class Facts : Prop extends Facts₀ where

variable [Facts]
-- ==== Proof.GatedLayer.lean ====
/-
  One expert's gated feed-forward layer, as numbers on the extended reals.

  A token is a vector `x` of 2048 features. An expert holds 2816 weight rows of length 2048, the first 1408 the GATE
  rows and the last 1408 the UP rows, and 2048 output rows of length 1408. Hidden unit `h` of the token is
  `a · σ(a) · b` with `a = ⟨x, gate row h⟩`, `b = ⟨x, up row h⟩` and `σ(a) = 1 / (1 + e^(-a))` the logistic function;
  output feature `d` is the inner product of the 1408 hidden units with output row `d`.

  `G3` is that layer over the arrays: tokens laid out [expert, token, feature], the packed gate/up weights
  [expert, row, feature], the output weights [expert, output feature, hidden unit]; entry (e, r, d) of the result is
  output feature `d` of token `r` of expert `e` under expert `e`'s weights.

  Nothing here needs the inputs finite: only sums and products in a fixed order are used.
-/
import Idealize.ShloMosaic.PureOps.Ideal
import Idealize.ShloMosaic.Lib.ValueIdx

noncomputable section

open scoped BigOperators

namespace Cert.Moe

open Idealize.ShloMosaic Idealize.ShloMosaic.ValueIdx

/-- The inner product of a token's 2048 features with one weight row. -/
def rowDot (x w : Fin 2048 → EReal) : EReal := ∑ k : Fin 2048, x k * w k

/-- Hidden unit `h`'s gate row among the 2816 packed rows: row `h`. -/
def gateRow (h : Fin 1408) : Fin 2816 := ⟨h.val, by have := h.isLt; omega⟩
/-- Hidden unit `h`'s up row among the 2816 packed rows: row `1408 + h`. -/
def upRow (h : Fin 1408) : Fin 2816 := ⟨1408 + h.val, by have := h.isLt; omega⟩

/-- Hidden unit `h` of a token: `a · σ(a) · b`, multiplied in that order. -/
def hidden (x : Fin 2048 → EReal) (w13 : Fin 2816 → Fin 2048 → EReal) (h : Fin 1408) : EReal :=
  rowDot x (w13 (gateRow h)) * Ideal.logistic (rowDot x (w13 (gateRow h))) * rowDot x (w13 (upRow h))

/-- One output feature of a token: the hidden units against one output row. -/
def ffn (x : Fin 2048 → EReal) (w13 : Fin 2816 → Fin 2048 → EReal) (w2 : Fin 1408 → EReal) : EReal :=
  ∑ h : Fin 1408, hidden x w13 h * w2 h

/-- The layer over the arrays, entry by entry. -/
def G3 (x : (⟨3, ![8, 2048, 2048]⟩ : Shape).Idx → EReal) (w13 : (⟨3, ![8, 2816, 2048]⟩ : Shape).Idx → EReal)
    (w2 : (⟨3, ![8, 2048, 1408]⟩ : Shape).Idx → EReal) : (⟨3, ![8, 2048, 2048]⟩ : Shape).Idx → EReal := fun j =>
  let e : Fin 8 := j 0
  let r : Fin 2048 := j 1
  let d : Fin 2048 := j 2
  ffn (fun k => x (ix3 e r k)) (fun h k => w13 (ix3 e h k)) (fun h => w2 (ix3 e d h))

/-- `G3` at an entry given by its coordinates. -/
theorem G3_apply (x : (⟨3, ![8, 2048, 2048]⟩ : Shape).Idx → EReal) (w13 : (⟨3, ![8, 2816, 2048]⟩ : Shape).Idx → EReal)
    (w2 : (⟨3, ![8, 2048, 1408]⟩ : Shape).Idx → EReal) (e : Fin 8) (r d : Fin 2048) :
    G3 x w13 w2 (ix3 e r d) = ffn (fun k => x (ix3 e r k)) (fun h k => w13 (ix3 e h k)) (fun h => w2 (ix3 e d h)) := rfl

/-- The 32-bit float word `0x3F800000` is the number one. -/
theorem one_f32 : Ideal.ofBits .f32 0x3F800000#32 = 1 := by
  simp [Ideal.ofBits, Ideal.ieee, -EReal.coe_mul]; norm_num

/-- `1 / (1 + e^(-a))` spelt with a quotient, a sum, an exponential and a negation is the logistic function, at every
    extended real: that expression is the function's definition. -/
theorem logistic_expand (a : EReal) :
    FloatOps.hostDivf (F := Ideal) (φ := .f32) (Ideal.ofBits .f32 0x3F800000#32)
        (FloatOps.addf (F := Ideal) (φ := .f32) (Ideal.ofBits .f32 0x3F800000#32) (FloatOps.hostUnary (F := Ideal) (φ := .f32) .exp (FloatOps.hostNegf (F := Ideal) (φ := .f32) a)))
      = Ideal.logistic a := by
  rw [one_f32]; rfl

end Cert.Moe

end
-- ==== Proof.ReferenceLayer.lean ====
/-
  The reference program, read one entry at a time, is the gated feed-forward layer.

  The program reshapes the tokens to [expert, token, feature], takes their inner products with all 2816 packed weight
  rows, splits the result into its gate half (columns 0..1407) and its up half (columns 1408..2815), multiplies the
  gate half by its own logistic value, spelt 1 / (1 + e^(-a)), and by the up half, and takes inner products with the
  output rows. Entry (e, r, d) of that last array is therefore output feature `d` of token `r` under expert `e`'s
  weights, which is what `G3` of the reshaped tokens says.
-/
import proofs.«116551_j30537217475283_2_alg».proof.Proof.Gen.ReferenceIdeal.Read
import proofs.«116551_j30537217475283_2_alg».proof.Proof.GatedLayer

noncomputable section

open scoped BigOperators

namespace Cert.Moe.Ref

open Cert.ReferenceIdeal Cert.ReferenceIdeal.Read Idealize.ShloMosaic Idealize.ShloMosaic.ValueIdx

variable (x0 : (⟨S16384x2048, .f32⟩ : BufTy).Contents (Elt Ideal)) (x1 : (⟨S8x2816x2048, .f32⟩ : BufTy).Contents (Elt Ideal))

/-- Entry (e, r, h) of the first product array is the inner product of token `r` of expert `e` with packed row `h`. -/
theorem stage1_apply (e : Fin 8) (r : Fin 2048) (h : Fin 2816) :
    val_main_v1 (F := Ideal) x0 x1 (ix3 e r h)
      = Cert.Moe.rowDot (fun k => val_main_v0 (F := Ideal) x0 (ix3 e r k)) (fun k => x1 (ix3 e h k)) := by
  rw [val_main_v1_apply]
  unfold Cert.Moe.rowDot
  refine Finset.sum_congr rfl fun k _ => ?_
  have el : lidx_main_v1 (ix3 e r h) k = ix3 e r k :=
    funext fun a => Fin.ext (by match a with | ⟨0, _⟩ => rfl | ⟨1, _⟩ => rfl | ⟨2, _⟩ => rfl)
  have er : ridx_main_v1 (ix3 e r h) k = ix3 e h k :=
    funext fun a => Fin.ext (by match a with | ⟨0, _⟩ => rfl | ⟨1, _⟩ => rfl | ⟨2, _⟩ => rfl)
  rw [el, er]

/-- Entry (e, r, h) of the gated array is hidden unit `h` of token `r` of expert `e`. -/
theorem stage5_apply (e : Fin 8) (r : Fin 2048) (h : Fin 1408) :
    val_main_v5 (F := Ideal) x0 x1 (ix3 e r h)
      = Cert.Moe.hidden (fun k => val_main_v0 (F := Ideal) x0 (ix3 e r k)) (fun h' k => x1 (ix3 e h' k)) h := by
  have eg : idx_main_v2 (ix3 e r h) = ix3 e r (Cert.Moe.gateRow h) :=
    funext fun a => Fin.ext (by match a with | ⟨0, _⟩ => rfl | ⟨1, _⟩ => rfl | ⟨2, _⟩ => rfl)
  have eu : idx_main_v3 (ix3 e r h) = ix3 e r (Cert.Moe.upRow h) :=
    funext fun a => Fin.ext (by match a with | ⟨0, _⟩ => rfl | ⟨1, _⟩ => rfl | ⟨2, _⟩ => rfl)
  rw [val_main_v5_apply, val_main_v4_apply, val_main_call0_v5_apply, val_main_call0_v4_apply,
    val_main_call0_cst_0_apply, val_main_call0_v3_apply, val_main_call0_v2_apply, val_main_call0_cst_apply,
    val_main_call0_v1_apply, val_main_call0_v0_apply, val_main_v2_apply, val_main_v3_apply, eg, eu,
    stage1_apply, stage1_apply]
  unfold Cert.Moe.hidden
  rw [← Cert.Moe.logistic_expand]
  rfl

/-- The last product array is the gated layer of the reshaped tokens. -/
theorem stage6_eq (x0 : (⟨S16384x2048, .f32⟩ : BufTy).Contents (Elt Ideal)) (x1 : (⟨S8x2816x2048, .f32⟩ : BufTy).Contents (Elt Ideal)) (x2 : (⟨S8x2048x1408, .f32⟩ : BufTy).Contents (Elt Ideal)) :
    val_main_v6 (F := Ideal) x0 x1 x2 = Cert.Moe.G3 (val_main_v0 (F := Ideal) x0) x1 x2 := by
  funext j
  obtain ⟨e, r, d, rfl⟩ : ∃ (e : Fin 8) (r d : Fin 2048), j = ix3 e r d := ⟨j 0, j 1, j 2, eq_ix3 j⟩
  rw [val_main_v6_apply, Cert.Moe.G3_apply]
  unfold Cert.Moe.ffn
  refine Finset.sum_congr rfl fun h _ => ?_
  have el : lidx_main_v6 (ix3 e r d) h = ix3 e r h :=
    funext fun a => Fin.ext (by match a with | ⟨0, _⟩ => rfl | ⟨1, _⟩ => rfl | ⟨2, _⟩ => rfl)
  have er : ridx_main_v6 (ix3 e r d) h = ix3 e d h :=
    funext fun a => Fin.ext (by match a with | ⟨0, _⟩ => rfl | ⟨1, _⟩ => rfl | ⟨2, _⟩ => rfl)
  rw [el, er, stage5_apply]

end Cert.Moe.Ref

end
-- ==== Proof.TileBody.lean ====
/-
  What one step of the layer's kernel computes on its three loaded tiles, entry by entry.

  The step holds a tile of 256 tokens (2048 features each), one expert's 2816 packed weight rows (gate rows first, up rows
  second) and a tile of 2048 output rows (1408 hidden units each), every tile with a leading axis of extent one. It forms
  the 256 × 2816 table of inner products of tokens with weight rows, splits it into its gate half (columns 0..1407) and
  its up half (columns 1408..2815), multiplies a · σ(a) · b entry by entry, and takes the inner products of the resulting
  256 × 1408 hidden table with the output rows. On the extended reals every change of number format is the identity, so
  entry (r, d) of what is stored is exactly output feature d of token r as the specification's `ffn` writes it.

  The steps: the two views that drop or restore the unit axis keep the row-major position; each product, read at an
  entry, is a sum over the one contracted axis, re-indexed by that axis's coordinate; each column slice shifts the column
  by its offset; the rest is pointwise.
-/
import proofs.«116551_j30537217475283_2_alg».proof.Proof.Gen.KernelIdeal.Skeleton
import proofs.«116551_j30537217475283_2_alg».proof.Proof.GatedLayer
import Idealize.ShloMosaic.Lib.Pipeline.Value
import Idealize.ShloMosaic.Lib.ValueIdx
import Idealize.ShloMosaic.PureOps.Ideal.Laws

noncomputable section

open scoped BigOperators

namespace Cert.Moe.Tile

open Cert.KernelIdeal Cert.KernelIdeal.Gen Idealize.ShloMosaic Idealize.ShloMosaic.ValueIdx

/-- Viewing a [1, n, m] tile as [n, m] reads entry (0, r, k) at (r, k): both sit at row-major position r·m + k. -/
theorem dropUnit_apply {α : Type} {n m : Nat} (x : (⟨3, ![1, n, m]⟩ : Shape).Idx → α)
    (h : (⟨3, ![1, n, m]⟩ : Shape).ShapeCasts ⟨2, ![n, m]⟩) (r : Fin n) (k : Fin m) :
    shapeCast ⟨2, ![n, m]⟩ x h (ix2 r k) = x (ix3 (0 : Fin 1) r k) :=
  shapeCast_apply x h (ix2 r k) (ix3 (0 : Fin 1) r k) (by
    rewrite [Shape.rowMajor_val_two, Shape.rowMajor_val_three]
    show (0 * n + r.val) * m + k.val = r.val * m + k.val
    rw [Nat.zero_mul, Nat.zero_add])

/-- Viewing an [n, m] value as a [1, n, m] tile reads entry (r, k) at (z, r, k): the unit axis's coordinate is 0. -/
theorem addUnit_apply {α : Type} {n m : Nat} (x : (⟨2, ![n, m]⟩ : Shape).Idx → α)
    (h : (⟨2, ![n, m]⟩ : Shape).ShapeCasts ⟨3, ![1, n, m]⟩) (z : Fin 1) (r : Fin n) (k : Fin m) :
    shapeCast ⟨3, ![1, n, m]⟩ x h (ix3 z r k) = x (ix2 r k) :=
  shapeCast_apply x h (ix3 z r k) (ix2 r k) (by
    rewrite [Shape.rowMajor_val_two, Shape.rowMajor_val_three]
    show r.val * m + k.val = (z.val * n + r.val) * m + k.val
    rw [Fin.val_eq_zero z, Nat.zero_mul, Nat.zero_add])

/-- The first product at (r, h): row r of the token tile against row h of the packed weight tile, both contracted
    over their last axis. -/
theorem mm1_apply (L : FVec Ideal S256x2048 .bf16) (R : FVec Ideal S2816x2048 .bf16) (r : Fin 256) (h : Fin 2816) :
    matmul dot_S256x2048_S2816x2048_S256x2816_1_1_0_0_n_n none L R (constant (F := Ideal) S256x2816 .f32 0x00000000#32) (ix2 r h)
      = Cert.Moe.rowDot (fun k => L (ix2 r k)) (fun k => R (ix2 h k)) := by
  refine (Ideal.matmul_constant_zero_apply _ none L R (ix2 r h)).trans ?_
  unfold Cert.Moe.rowDot
  rw [← Equiv.sum_comp (contrEquiv1 dot_S256x2048_S2816x2048_S256x2816_1_1_0_0_n_n 2048 rfl rfl).symm]
  refine Finset.sum_congr rfl fun k _ => ?_
  have hk := contrEquiv1_symm_val dot_S256x2048_S2816x2048_S256x2816_1_1_0_0_n_n 2048 rfl rfl k
  have el : dot_S256x2048_S2816x2048_S256x2816_1_1_0_0_n_n.lhsIdx (ix2 r h)
      ((contrEquiv1 dot_S256x2048_S2816x2048_S256x2816_1_1_0_0_n_n 2048 rfl rfl).symm k) = ix2 r k :=
    funext fun a => Fin.ext (by
      match a with
      | ⟨0, _⟩ =>
        show (dot_S256x2048_S2816x2048_S256x2816_1_1_0_0_n_n.lhsIdx (ix2 r h) _ 0).val = r.val
        unfold DotDims.lhsIdx
        rw [dif_neg (show ¬(0 : Fin S256x2048.rank) ∈ dot_S256x2048_S2816x2048_S256x2816_1_1_0_0_n_n.lhsBatch by decide),
          dif_pos (show (0 : Fin S256x2048.rank) ∈ dot_S256x2048_S2816x2048_S256x2816_1_1_0_0_n_n.lhsNonContracting by decide)]
        rfl
      | ⟨1, _⟩ => exact (dot_S256x2048_S2816x2048_S256x2816_1_1_0_0_n_n.lhsIdx_val_of_single rfl _ _).trans hk)
  have er : dot_S256x2048_S2816x2048_S256x2816_1_1_0_0_n_n.rhsIdx (ix2 r h)
      ((contrEquiv1 dot_S256x2048_S2816x2048_S256x2816_1_1_0_0_n_n 2048 rfl rfl).symm k) = ix2 h k :=
    funext fun a => Fin.ext (by
      match a with
      | ⟨0, _⟩ =>
        show (dot_S256x2048_S2816x2048_S256x2816_1_1_0_0_n_n.rhsIdx (ix2 r h) _ 0).val = h.val
        unfold DotDims.rhsIdx
        rw [dif_neg (show ¬(0 : Fin S2816x2048.rank) ∈ dot_S256x2048_S2816x2048_S256x2816_1_1_0_0_n_n.rhsBatch by decide),
          dif_pos (show (0 : Fin S2816x2048.rank) ∈ dot_S256x2048_S2816x2048_S256x2816_1_1_0_0_n_n.rhsNonContracting by decide)]
        rfl
      | ⟨1, _⟩ => exact (dot_S256x2048_S2816x2048_S256x2816_1_1_0_0_n_n.rhsIdx_val_of_single rfl _ _).trans hk)
  rw [el, er]

/-- The second product at (r, d): row r of the hidden tile against row d of the output weight tile, both contracted
    over their last axis. -/
theorem mm2_apply (L : FVec Ideal S256x1408 .bf16) (R : FVec Ideal S2048x1408 .bf16) (r : Fin 256) (d : Fin 2048) :
    matmul dot_S256x1408_S2048x1408_S256x2048_1_1_0_0_n_n none L R (constant (F := Ideal) S256x2048 .f32 0x00000000#32) (ix2 r d)
      = ∑ h : Fin 1408, L (ix2 r h) * R (ix2 d h) := by
  refine (Ideal.matmul_constant_zero_apply _ none L R (ix2 r d)).trans ?_
  rw [← Equiv.sum_comp (contrEquiv1 dot_S256x1408_S2048x1408_S256x2048_1_1_0_0_n_n 1408 rfl rfl).symm]
  refine Finset.sum_congr rfl fun k _ => ?_
  have hk := contrEquiv1_symm_val dot_S256x1408_S2048x1408_S256x2048_1_1_0_0_n_n 1408 rfl rfl k
  have el : dot_S256x1408_S2048x1408_S256x2048_1_1_0_0_n_n.lhsIdx (ix2 r d)
      ((contrEquiv1 dot_S256x1408_S2048x1408_S256x2048_1_1_0_0_n_n 1408 rfl rfl).symm k) = ix2 r k :=
    funext fun a => Fin.ext (by
      match a with
      | ⟨0, _⟩ =>
        show (dot_S256x1408_S2048x1408_S256x2048_1_1_0_0_n_n.lhsIdx (ix2 r d) _ 0).val = r.val
        unfold DotDims.lhsIdx
        rw [dif_neg (show ¬(0 : Fin S256x1408.rank) ∈ dot_S256x1408_S2048x1408_S256x2048_1_1_0_0_n_n.lhsBatch by decide),
          dif_pos (show (0 : Fin S256x1408.rank) ∈ dot_S256x1408_S2048x1408_S256x2048_1_1_0_0_n_n.lhsNonContracting by decide)]
        rfl
      | ⟨1, _⟩ => exact (dot_S256x1408_S2048x1408_S256x2048_1_1_0_0_n_n.lhsIdx_val_of_single rfl _ _).trans hk)
  have er : dot_S256x1408_S2048x1408_S256x2048_1_1_0_0_n_n.rhsIdx (ix2 r d)
      ((contrEquiv1 dot_S256x1408_S2048x1408_S256x2048_1_1_0_0_n_n 1408 rfl rfl).symm k) = ix2 d k :=
    funext fun a => Fin.ext (by
      match a with
      | ⟨0, _⟩ =>
        show (dot_S256x1408_S2048x1408_S256x2048_1_1_0_0_n_n.rhsIdx (ix2 r d) _ 0).val = d.val
        unfold DotDims.rhsIdx
        rw [dif_neg (show ¬(0 : Fin S2048x1408.rank) ∈ dot_S256x1408_S2048x1408_S256x2048_1_1_0_0_n_n.rhsBatch by decide),
          dif_pos (show (0 : Fin S2048x1408.rank) ∈ dot_S256x1408_S2048x1408_S256x2048_1_1_0_0_n_n.rhsNonContracting by decide)]
        rfl
      | ⟨1, _⟩ => exact (dot_S256x1408_S2048x1408_S256x2048_1_1_0_0_n_n.rhsIdx_val_of_single rfl _ _).trans hk)
  rw [el, er]

/-- Columns 0..1407 of the first product are the gate rows' inner products … -/
theorem gateCols_apply (y : FVec Ideal S256x2816 .f32) (r : Fin 256) (h : Fin 1408) :
    extractStridedSlice S256x1408 ![0, 0] y slices_S256x2816_o0_0_S256x1408 (ix2 r h) = y (ix2 r (Cert.Moe.gateRow h)) :=
  extractStridedSlice_apply ![0, 0] y slices_S256x2816_o0_0_S256x1408 (ix2 r h) (ix2 r (Cert.Moe.gateRow h)) (fun a => match a with
    | ⟨0, _⟩ => by show r.val = 0 + r.val; omega
    | ⟨1, _⟩ => by show h.val = 0 + h.val; omega)

/-- … and columns 1408..2815 the up rows'. -/
theorem upCols_apply (y : FVec Ideal S256x2816 .f32) (r : Fin 256) (h : Fin 1408) :
    extractStridedSlice S256x1408 ![0, 1408] y slices_S256x2816_o0_1408_S256x1408 (ix2 r h) = y (ix2 r (Cert.Moe.upRow h)) :=
  extractStridedSlice_apply ![0, 1408] y slices_S256x2816_o0_1408_S256x1408 (ix2 r h) (ix2 r (Cert.Moe.upRow h)) (fun a => match a with
    | ⟨0, _⟩ => by show r.val = 0 + r.val; omega
    | ⟨1, _⟩ => by show 1408 + h.val = 1408 + h.val; omega)

/-- The gated product of the two column halves, read at (r, h): a · σ(a) · b of the first product's entries in
    columns h and 1408 + h (the format change is the identity on extended reals). -/
theorem gated_apply (y : FVec Ideal S256x2816 .f32) (r : Fin 256) (h : Fin 1408) :
    (truncf .bf16 (mulf (mulf (extractStridedSlice S256x1408 ![0, 0] y slices_S256x2816_o0_0_S256x1408)
        (logistic (extractStridedSlice S256x1408 ![0, 0] y slices_S256x2816_o0_0_S256x1408)))
        (extractStridedSlice S256x1408 ![0, 1408] y slices_S256x2816_o0_1408_S256x1408)) bitsLt_bf16_f32 : FVec Ideal S256x1408 .bf16) (ix2 r h)
      = y (ix2 r (Cert.Moe.gateRow h)) * Ideal.logistic (y (ix2 r (Cert.Moe.gateRow h))) * y (ix2 r (Cert.Moe.upRow h)) := by
  show extractStridedSlice S256x1408 ![0, 0] y slices_S256x2816_o0_0_S256x1408 (ix2 r h)
      * Ideal.logistic (extractStridedSlice S256x1408 ![0, 0] y slices_S256x2816_o0_0_S256x1408 (ix2 r h))
      * extractStridedSlice S256x1408 ![0, 1408] y slices_S256x2816_o0_1408_S256x1408 (ix2 r h) = _
  rw [gateCols_apply, upCols_apply]

/-- The first product on the loaded tiles at (r, c): token r's features against packed weight row c. -/
theorem first_apply (x0 : Vec Ideal S1x256x2048 .f32) (x1 : Vec Ideal S1x2816x2048 .bf16) (r : Fin 256) (c : Fin 2816) :
    matmul dot_S256x2048_S2816x2048_S256x2816_1_1_0_0_n_n none
        (truncf .bf16 (shapeCast S256x2048 x0 shapeCasts_S1x256x2048_S256x2048 : FVec Ideal S256x2048 .f32) bitsLt_bf16_f32)
        (shapeCast S2816x2048 x1 shapeCasts_S1x2816x2048_S2816x2048 : FVec Ideal S2816x2048 .bf16)
        (constant (F := Ideal) S256x2816 .f32 0x00000000#32) (ix2 r c)
      = Cert.Moe.rowDot (fun k => x0 (ix3 (0 : Fin 1) r k)) (fun k => x1 (ix3 (0 : Fin 1) c k)) :=
  (mm1_apply _ _ r c).trans (congrArg₂ Cert.Moe.rowDot (funext fun k => dropUnit_apply x0 _ r k)
    (funext fun k => dropUnit_apply x1 _ c k))

/-- What the body stores, read at one entry of the [1, 256, 2048] tile: output feature d of token r under the loaded
    weight tiles. -/
theorem pay_apply (x0 : Vec Ideal S1x256x2048 .f32) (x1 : Vec Ideal S1x2816x2048 .bf16) (x2 : Vec Ideal S1x2048x1408 .bf16)
    (z : Fin 1) (r : Fin 256) (d : Fin 2048) :
    k0_pay1 (F := Ideal) x0 x1 x2 (ix3 z r d)
      = Cert.Moe.ffn (fun k => x0 (ix3 (0 : Fin 1) r k)) (fun h k => x1 (ix3 (0 : Fin 1) h k)) (fun h => x2 (ix3 (0 : Fin 1) d h)) := by
  unfold k0_pay1
  refine (addUnit_apply _ _ z r d).trans ?_
  refine (mm2_apply _ _ r d).trans ?_
  unfold Cert.Moe.ffn
  refine Finset.sum_congr rfl fun h _ => ?_
  refine congrArg₂ (· * ·) ?_ (dropUnit_apply x2 _ d h)
  refine (gated_apply _ r h).trans ?_
  unfold Cert.Moe.hidden
  rw [first_apply, first_apply]

end Cert.Moe.Tile

end
-- ==== Proof.Tiles.lean ====
/-
  From tiles to the array. The grid has 8 × 8 points; point `t` is expert `t / 8`, token tile `t % 8`. At that point
  the body sees rows `256·(t % 8) … 256·(t % 8) + 255` of expert `t / 8`'s tokens and the whole of that expert's two
  weight blocks, and writes back the same rows of the expert's output block. Each entry the body stores is the gated
  layer's output feature computed from the loaded tiles (`hpay`, a hypothesis here: it is proved beside this module), and
  a tile's entry is the array's entry at the shifted row; so what point `t` writes back is tile `t` of `G3` of the three
  arrays as the region finds them. The 64 tiles cover the output array (row `r` of expert `e` lies in tile
  `8·e + r / 256`), so the array ends holding `G3`.
-/
import proofs.«116551_j30537217475283_2_alg».proof.Proof.Gen.KernelIdeal.Frame
import proofs.«116551_j30537217475283_2_alg».proof.Proof.GatedLayer
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Moe.Tiles

open Cert.KernelIdeal Cert.KernelIdeal.Gen

variable (m : (ℓ : Loc nD τ sig) → Buf (Elt Ideal) ℓ)

/-- The body's stored entry is the layer's output feature on the loaded tiles: the statement the tile-body module proves. -/
def PayAt : Prop :=
  ∀ (x0 : Vec Ideal S1x256x2048 .f32) (x1 : Vec Ideal S1x2816x2048 .bf16) (x2 : Vec Ideal S1x2048x1408 .bf16)
    (z : Fin 1) (r : Fin 256) (d : Fin 2048),
    k0_pay1 (F := Ideal) x0 x1 x2 (ix3 z r d)
      = Cert.Moe.ffn (fun k => x0 (ix3 (0 : Fin 1) r k)) (fun h k => x1 (ix3 (0 : Fin 1) h k)) (fun h => x2 (ix3 (0 : Fin 1) d h))

theorem hz : (![0, 0, 0] : Fin 3 → Nat) = fun _ => 0 := funext fun a => by fin_cases a <;> rfl

/-- The four index maps over the grid: point `t` is expert `t / 8`, token tile `t % 8`; the weights move with the expert only. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0 :=
  (by decide +kernel : ∀ t : Fin grid0.N, _)

/-- One tile: if the loaded tiles are rows `256·s …` of expert `e`'s tokens and expert `e`'s weight blocks, the body's
    entry at tile row `y 1`, feature `y 2` is `G3`'s entry at expert `e`, row `256·s + y 1`, feature `y 2`. -/
theorem tile_eq (hpay : PayAt) (A0 : S8x2048x2048.Idx → EReal) (A1 : S8x2816x2048.Idx → EReal) (A2 : S8x2048x1408.Idx → EReal)
    (x0 : Vec Ideal S1x256x2048 .f32) (x1 : Vec Ideal S1x2816x2048 .bf16) (x2 : Vec Ideal S1x2048x1408 .bf16)
    (e s : Nat) (he : e < 8) (hs : s < 8)
    (h0 : ∀ (r : Fin 256) (k : Fin 2048), x0 (ix3 (0 : Fin 1) r k) = A0 (ix3 (⟨e, he⟩ : Fin 8) (⟨s * 256 + r.val, by have := r.isLt; omega⟩ : Fin 2048) k))
    (h1 : ∀ (h : Fin 2816) (k : Fin 2048), x1 (ix3 (0 : Fin 1) h k) = A1 (ix3 (⟨e, he⟩ : Fin 8) h k))
    (h2 : ∀ (d : Fin 2048) (h : Fin 1408), x2 (ix3 (0 : Fin 1) d h) = A2 (ix3 (⟨e, he⟩ : Fin 8) d h))
    (y : S1x256x2048.Idx) (i : S8x2048x2048.Idx)
    (hi0 : (i 0).val = e) (hi1 : (i 1).val = s * 256 + (y 1).val) (hi2 : (i 2).val = (y 2).val) :
    k0_pay1 (F := Ideal) x0 x1 x2 y = Cert.Moe.G3 A0 A1 A2 i := by
  obtain ⟨z, r, d, rfl⟩ : ∃ (z : Fin 1) (r : Fin 256) (d : Fin 2048), y = ix3 z r d := ⟨y 0, y 1, y 2, eq_ix3 y⟩
  have hb : s * 256 + r.val < 2048 := by have := r.isLt; omega
  obtain ⟨e', r', d', rfl⟩ : ∃ (e' : Fin 8) (r' d' : Fin 2048), i = ix3 e' r' d' := ⟨i 0, i 1, i 2, eq_ix3 i⟩
  obtain rfl : e' = ⟨e, he⟩ := Fin.ext hi0
  obtain rfl : r' = ⟨s * 256 + r.val, hb⟩ := Fin.ext hi1
  obtain rfl : d' = d := Fin.ext hi2
  rw [hpay x0 x1 x2 z r d', Cert.Moe.G3_apply]
  congr 1
  · funext k; exact h0 r k
  · funext h k; exact h1 h k
  · funext h; exact h2 d' h

/-- WHAT POINT `t` WRITES BACK is tile `t` of `G3` of the three arrays as the region finds them. -/
theorem flushed_eq (hpay : PayAt) (c : Dev nD) (t : Fin cfg0.N) :
    (dats m 0 c).flushed 3 t = ((cfg0.win 3).blk t).view.read (Elt Ideal)
      (Cert.Moe.G3 (V m c main_v0 : S8x2048x2048.Idx → EReal) (V m c main_v1 : S8x2816x2048.Idx → EReal) (V m c main_v2 : S8x2048x1408.Idx → EReal)) := by
  show (cfg0.win 3).cut (grid0.coords t) ((dats m 0 c).after 3 t) = _
  rw [after0_3]
  unfold out0_3
  rw [View.canon_unit_zero hz]
  simp only [View.ld_unit_zero (S := S1x256x2048) hz, View.ld_unit_zero (S := S1x2816x2048) hz, View.ld_unit_zero (S := S1x2048x1408) hz]
  obtain ⟨a0, a1, a2, b0, b1, b2, c0, c1, c2, d0, d1, d2⟩ := idx_facts t
  have hN : t.val < 64 := lt_of_lt_of_eq t.isLt N_0
  funext y
  refine tile_eq hpay _ _ _ (iblk m c 0 t) (iblk m c 1 t) (iblk m c 2 t) (t.val / 8) (t.val % 8) (by omega) (by omega) ?_ ?_ ?_ y _ ?_ ?_ ?_
  · intro r k
    show V m c main_v0 (((cfg0.win 0).blk t).view.emb (ix3 (0 : Fin 1) r k)) = V m c main_v0 _
    congr 1
    funext a; apply Fin.ext
    match a with
    | ⟨0, _⟩ => show win0_0.index t (0 : Fin 3) * 1 + 1 * 0 = t.val / 8; omega
    | ⟨1, _⟩ => show win0_0.index t (1 : Fin 3) * 256 + 1 * r.val = t.val % 8 * 256 + r.val; omega
    | ⟨2, _⟩ => show win0_0.index t (2 : Fin 3) * 2048 + 1 * k.val = k.val; omega
  · intro h k
    show V m c main_v1 (((cfg0.win 1).blk t).view.emb (ix3 (0 : Fin 1) h k)) = V m c main_v1 _
    congr 1
    funext a; apply Fin.ext
    match a with
    | ⟨0, _⟩ => show win0_1.index t (0 : Fin 3) * 1 + 1 * 0 = t.val / 8; omega
    | ⟨1, _⟩ => show win0_1.index t (1 : Fin 3) * 2816 + 1 * h.val = h.val; omega
    | ⟨2, _⟩ => show win0_1.index t (2 : Fin 3) * 2048 + 1 * k.val = k.val; omega
  · intro d h
    show V m c main_v2 (((cfg0.win 2).blk t).view.emb (ix3 (0 : Fin 1) d h)) = V m c main_v2 _
    congr 1
    funext a; apply Fin.ext
    match a with
    | ⟨0, _⟩ => show win0_2.index t (0 : Fin 3) * 1 + 1 * 0 = t.val / 8; omega
    | ⟨1, _⟩ => show win0_2.index t (1 : Fin 3) * 2048 + 1 * d.val = d.val; omega
    | ⟨2, _⟩ => show win0_2.index t (2 : Fin 3) * 1408 + 1 * h.val = h.val; omega
  · show win0_3.index t (0 : Fin 3) * 1 + 1 * (y 0).val = t.val / 8
    have hy : (y 0).val < 1 := (y 0).isLt
    omega
  · show win0_3.index t (1 : Fin 3) * 256 + 1 * (y 1).val = t.val % 8 * 256 + (y 1).val
    omega
  · show win0_3.index t (2 : Fin 3) * 2048 + 1 * (y 2).val = (y 2).val
    omega

/-- An entry of the output array is in point `t`'s tile iff each coordinate is in the tile's range on its axis. -/
theorem mem_blk (t : Fin cfg0.N) (i : S8x2048x2048.Idx) :
    i ∈ ((cfg0.win 3).blk t).view.set ↔ ∀ a : Fin 3, win0_3.index t a * S1x256x2048.size a ≤ (i a).val ∧ (i a).val < win0_3.index t a * S1x256x2048.size a + S1x256x2048.size a := by
  show i ∈ ((View.whole main_v3).slice (win0_3.rect t)).set ↔ _
  rw [View.set_slice_whole, Rect.mem_set_unit]
  exact Iff.rfl

/-- The 64 tiles cover the output array: entry (e, r, d) lies in the tile of point `8·e + r / 256`. -/
theorem cover (i : S8x2048x2048.Idx) : ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 2048 := (i 2).isLt
  have hN : cfg0.N = 64 := N_0
  let t : Fin cfg0.N := ⟨(i 0).val * 8 + (i 1).val / 256, by rw [hN]; omega⟩
  have ht : t.val = (i 0).val * 8 + (i 1).val / 256 := rfl
  obtain ⟨-, -, -, -, -, -, -, -, -, d0, d1, d2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 2048 ≤ (i 2).val ∧ (i 2).val < win0_3.index t (2 : Fin 3) * 2048 + 2048; omega

/-- THE OUTPUT ARRAY after the region: `G3` of the three arrays as the region finds them. -/
theorem final (hpay : PayAt) (c : Dev nD) :
    (dats m 0 c).arrAt 3 cfg0.N
      = Cert.Moe.G3 (V m c main_v0 : S8x2048x2048.Idx → EReal) (V m c main_v1 : S8x2816x2048.Idx → EReal) (V m c main_v2 : S8x2048x1408.Idx → EReal) :=
  (dats m 0 c).arrAt_eq_of_cover 3 _ (fun t _ => flushed_eq m hpay c t) cover

end Cert.Moe.Tiles

end
-- ==== Proof.HostEnds.lean ====
/-
  The program around the region, and its run.

  Before the region the tokens, 16384 rows of 2048 features, are re-laid row-major as [8, 2048, 2048] (row `2048·e + r`
  becomes token `r` of expert `e`), and the two weight arrays change float format, which on the extended reals changes
  nothing. After the region the output [8, 2048, 2048] is re-laid as 16384 rows. The region leaves `G3` of the arrays it
  finds, so the program's result is the re-laid `G3` of the re-laid tokens and the two weight arrays as launched, and
  the four argument arrays end as they were.
-/
import proofs.«116551_j30537217475283_2_alg».proof.Proof.Gen.KernelIdeal.Frame
import proofs.«116551_j30537217475283_2_alg».proof.Proof.GatedLayer
import proofs.«116551_j30537217475283_2_alg».proof.Proof.Tiles
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.Moe.Ends

open Cert.KernelIdeal Cert.KernelIdeal.Gen

variable (m : (ℓ : Loc nD τ sig) → Buf (Elt Ideal) ℓ) (ρ : Dev nD → PrngReg)

/-- The region finds the tokens re-laid as [expert, token, feature]. -/
theorem tokens_in (c : Dev nD) :
    (V m c main_v0 : S8x2048x2048.Idx → EReal)
      = shapeCast S8x2048x2048 (m ((c : Thread nD τ).loc main_arg0)) shapeCasts_S16384x2048_S8x2048x2048 := by
  show StableHlo.after hostOps0 (fun b => m (c, b)) (Proc.devRef .tc main_v0) = _
  after_results
  rfl

/-- The region finds the packed gate/up weights as launched: a change of float format is the identity on the extended reals. -/
theorem w13_in (c : Dev nD) :
    (V m c main_v1 : S8x2816x2048.Idx → EReal) = (m ((c : Thread nD τ).loc main_arg1) : S8x2816x2048.Idx → EReal) := by
  show StableHlo.after hostOps0 (fun b => m (c, b)) (Proc.devRef .tc main_v1) = _
  after_results
  rfl

/-- The region finds the output weights as launched, for the same reason. -/
theorem w2_in (c : Dev nD) :
    (V m c main_v2 : S8x2048x1408.Idx → EReal) = (m ((c : Thread nD τ).loc main_arg2) : S8x2048x1408.Idx → EReal) := by
  show StableHlo.after hostOps0 (fun b => m (c, b)) (Proc.devRef .tc main_v2) = _
  after_results
  rfl

/-- The program's result is the output array the region leaves, re-laid as 16384 rows. -/
theorem result_out (c : Dev nD) :
    Pipeline.afterTail₀ cfgs (dats m) 0 (V0 m) [hostOps1] c main_v4
      = shapeCast S16384x2048 ((dats m 0 c).arrAt 3 cfg0.N) shapeCasts_S8x2048x2048_S16384x2048 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = (dats m 0 c).arrAt 3 cfg0.N :=
    Pipeline.withArrays_arr spec0 launch0.win.arr_inj c (V0 m c) _ 3
  rw [hw]
  rfl

/-- The layer's result as the program lays it out: 16384 rows of `G3` of the re-laid tokens and the weights. -/
def result (x : S16384x2048.Idx → EReal) (w13 : S8x2816x2048.Idx → EReal) (w2 : S8x2048x1408.Idx → EReal) : S16384x2048.Idx → EReal :=
  shapeCast S16384x2048 (Cert.Moe.G3 (shapeCast S8x2048x2048 x shapeCasts_S16384x2048_S8x2048x2048) w13 w2) shapeCasts_S8x2048x2048_S16384x2048

/-- THE RUN: every weakly fair execution ends with the result array at `result` of the argument arrays as launched,
    and the argument arrays unchanged. -/
theorem run (hpay : Cert.Moe.Tiles.PayAt) :
    θ_run defs (onTc (τ := τ) (main (F := Ideal))) ⟨m, fun _ => 0, ρ⟩ fun r => ∀ c : Dev nD,
      r.2.mem ((c.tc : Thread nD τ).loc main_v4)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v4 (Pipeline.mem_restRefs_of main_v4 (by decide) (by decide))).trans (by
        rw [result_out, Cert.Moe.Tiles.final m hpay c, tokens_in, w13_in, w2_in]; rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Moe.Ends

end
-- ==== Proof.lean ====
/-
  The certificate of the grouped feed-forward kernel against its batched reference.

  Both programs compute, for each of 8 experts and each of its 2048 tokens, the gated feed-forward layer
  `out[d] = ∑_h (a_h · σ(a_h) · b_h) · w2[d, h]` with `a_h = ⟨x, w13[h]⟩`, `b_h = ⟨x, w13[1408 + h]⟩` and `σ` the
  logistic function. The kernel does it tile by tile — 256 tokens of one expert at a grid point, the expert's two weight
  blocks whole, both products contracted in one go — with the tokens and the hidden units passed through a narrower float
  format; the reference does it with two batched products over whole arrays and spells `σ(a)` as `1 / (1 + e^(-a))`. On the
  extended reals a change of float format is the identity, a tile's entry is the array's entry at the shifted row, a matrix
  product into a zero accumulator and a batched product are the same finite sum, and `1 / (1 + e^(-a))` is the logistic
  function's definition; so both results are the one function `Cert.Moe.Ends.result` of the argument arrays. No step
  moves a factor across a sum or cancels, so the inputs' finiteness is never used.

  The three frames are the generated ones (the reference's is its generated run with the result dropped); the idealization
  rewrote no operation, so there is nothing to preserve.
-/
import proofs.«116551_j30537217475283_2_alg».proof.Defs
import proofs.«116551_j30537217475283_2_alg».proof.Proof.Gen.Kernel
import proofs.«116551_j30537217475283_2_alg».proof.Proof.Gen.Kernel.Skeleton
import proofs.«116551_j30537217475283_2_alg».proof.Proof.Gen.Kernel.Launch
import proofs.«116551_j30537217475283_2_alg».proof.Proof.Gen.Kernel.Points
import proofs.«116551_j30537217475283_2_alg».proof.Proof.Gen.Kernel.Frame
import proofs.«116551_j30537217475283_2_alg».proof.Proof.Gen.KernelIdeal
import proofs.«116551_j30537217475283_2_alg».proof.Proof.Gen.KernelIdeal.Skeleton
import proofs.«116551_j30537217475283_2_alg».proof.Proof.Gen.KernelIdeal.Launch
import proofs.«116551_j30537217475283_2_alg».proof.Proof.Gen.KernelIdeal.Points
import proofs.«116551_j30537217475283_2_alg».proof.Proof.Gen.KernelIdeal.Frame
import proofs.«116551_j30537217475283_2_alg».proof.Proof.Gen.ReferenceIdeal
import proofs.«116551_j30537217475283_2_alg».proof.Proof.Gen.Pre_finite_inputs
import proofs.«116551_j30537217475283_2_alg».proof.Proof.Gen.ReferenceIdeal.Run
import proofs.«116551_j30537217475283_2_alg».proof.Proof.Gen.ReferenceIdeal.Read
import proofs.«116551_j30537217475283_2_alg».proof.Proof.GatedLayer
import proofs.«116551_j30537217475283_2_alg».proof.Proof.ReferenceLayer
import proofs.«116551_j30537217475283_2_alg».proof.Proof.TileBody
import proofs.«116551_j30537217475283_2_alg».proof.Proof.Tiles
import proofs.«116551_j30537217475283_2_alg».proof.Proof.HostEnds
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and keeps its arguments: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result is the same function of its arguments as the kernel's: its last product array is `G3` of the
    re-laid tokens, and both programs re-lay that array the same way. -/
theorem reference_result (x0 : (⟨Cert.ReferenceIdeal.S16384x2048, .f32⟩ : BufTy).Contents (Elt Ideal))
    (x1 : (⟨Cert.ReferenceIdeal.S8x2816x2048, .f32⟩ : BufTy).Contents (Elt Ideal))
    (x2 : (⟨Cert.ReferenceIdeal.S8x2048x1408, .f32⟩ : BufTy).Contents (Elt Ideal)) :
    Cert.ReferenceIdeal.Read.val_main_v7 (F := Ideal) x0 x1 x2 = Cert.Moe.Ends.result x0 x1 x2 := by
  unfold Cert.ReferenceIdeal.Read.val_main_v7
  rw [Cert.Moe.Ref.stage6_eq]
  rfl

/-- On the extended reals the kernel and the reference, run from memories that agree on the arguments, both end, with
    the result array at the gated layer of the arguments, laid out as 16384 rows. -/
theorem algebraic : Cert.algebraic_KernelIdeal_ReferenceIdeal := by
  intro m ρ m' ρ' _ hagree
  refine ⟨fun c => Cert.Moe.Ends.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Moe.Ends.run m ρ Cert.Moe.Tile.pay_apply, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, reference_result, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
